-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S32768x512 : Shape := ⟨2, ![32768, 512]⟩
abbrev S32768x4 : Shape := ⟨2, ![32768, 4]⟩
abbrev S1536x256 : Shape := ⟨2, ![1536, 256]⟩
abbrev S1536 : Shape := ⟨1, ![1536]⟩
abbrev S1536x512 : Shape := ⟨2, ![1536, 512]⟩
abbrev S1536x4 : Shape := ⟨2, ![1536, 4]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S32768x4 : S_.BroadcastsInDim S32768x4 (![] : Fin 0 → Fin S32768x4.rank)
  reducesTo_S32768x4_S_d0_1 : S32768x4.ReducesTo [0, 1] S_
  bcast_S_S1536x256 : S_.BroadcastsInDim S1536x256 (![] : Fin 0 → Fin S1536x256.rank)
  reducesTo_S1536x256_S_d0_1 : S1536x256.ReducesTo [0, 1] S_
  bcast_S_S1536 : S_.BroadcastsInDim S1536 (![] : Fin 0 → Fin S1536.rank)
  reducesTo_S1536_S_d0 : S1536.ReducesTo [0] S_
  bcast_S_S1536x512 : S_.BroadcastsInDim S1536x512 (![] : Fin 0 → Fin S1536x512.rank)
  reducesTo_S1536x512_S_d0_1 : S1536x512.ReducesTo [0, 1] S_
  bcast_S_S1536x4 : S_.BroadcastsInDim S1536x4 (![] : Fin 0 → Fin S1536x4.rank)
  reducesTo_S1536x4_S_d0_1 : S1536x4.ReducesTo [0, 1] S_

variable [Facts]

def fn_part2 {F : FTy → Type} [FloatOps F] (main_arg7 : FVec F S1536x4 .f32) (main_arg8 : FVec F S1536 .f32) (main_v33 : IVec S_ 1) : IVec S_ 1 :=
  let main_v34 : FVec F S1536x4 .f32 := Host.absf main_arg7
  let main_cst_12 : FVec F S_ .f32 := constant S_ .f32 0x7F800000#32
  let main_v35 : FVec F S1536x4 .f32 := broadcastInDim S1536x4 ![] bcast_S_S1536x4 main_cst_12
  let main_v36 : IVec S1536x4 1 := cmpf .olt main_v34 main_v35
  let main_c_13 : IVec S_ 1 := constantI S_ 1 1#1
  let main_v37 : IVec S_ 1 := (fun x v => Host.reduce IntOp.andi x v reducesTo_S1536x4_S_d0_1 h_S_) main_v36 main_c_13
  let main_v38 : IVec S_ 1 := andi main_v33 main_v37
  let main_v39 : FVec F S1536 .f32 := Host.absf main_arg8
  let main_cst_14 : FVec F S_ .f32 := constant S_ .f32 0x7F800000#32
  let main_v40 : FVec F S1536 .f32 := broadcastInDim S1536 ![] bcast_S_S1536 main_cst_14
  let main_v41 : IVec S1536 1 := cmpf .olt main_v39 main_v40
  let main_c_15 : IVec S_ 1 := constantI S_ 1 1#1
  let main_v42 : IVec S_ 1 := (fun x v => Host.reduce IntOp.andi x v reducesTo_S1536_S_d0 h_S_) main_v41 main_c_15
  let main_v43 : IVec S_ 1 := andi main_v38 main_v42
  main_v43

def fn_part1 {F : FTy → Type} [FloatOps F] (main_arg4 : FVec F S1536 .f32) (main_arg5 : FVec F S1536x512 .f32) (main_arg6 : FVec F S1536 .f32) (main_arg7 : FVec F S1536x4 .f32) (main_arg8 : FVec F S1536 .f32) (main_v13 : IVec S_ 1) (main_v16 : IVec S1536x256 1) : IVec S_ 1 :=
  let main_c_5 : IVec S_ 1 := constantI S_ 1 1#1
  let main_v17 : IVec S_ 1 := (fun x v => Host.reduce IntOp.andi x v reducesTo_S1536x256_S_d0_1 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S1536x512 .f32 := Host.absf main_arg5
  let main_cst_8 : FVec F S_ .f32 := constant S_ .f32 0x7F800000#32
  let main_v25 : FVec F S1536x512 .f32 := broadcastInDim S1536x512 ![] bcast_S_S1536x512 main_cst_8
  let main_v26 : IVec S1536x512 1 := cmpf .olt main_v24 main_v25
  let main_c_9 : IVec S_ 1 := constantI S_ 1 1#1
  let main_v27 : IVec S_ 1 := (fun x v => Host.reduce IntOp.andi x v reducesTo_S1536x512_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_v33

def fn {F : FTy → Type} [FloatOps F] (main_arg0 : FVec F S32768x256 .f32) (main_arg1 : FVec F S32768x512 .f32) (main_arg2 : FVec F S32768x4 .f32) (main_arg3 : FVec F S1536x256 .f32) (main_arg4 : FVec F S1536 .f32) (main_arg5 : FVec F S1536x512 .f32) (main_arg6 : FVec F S1536 .f32) (main_arg7 : FVec F S1536x4 .f32) (main_arg8 : FVec F S1536 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x4 .f32 := Host.absf main_arg2
  let main_cst_2 : FVec F S_ .f32 := constant S_ .f32 0x7F800000#32
  let main_v10 : FVec F S32768x4 .f32 := broadcastInDim S32768x4 ![] bcast_S_S32768x4 main_cst_2
  let main_v11 : IVec S32768x4 1 := cmpf .olt main_v9 main_v10
  let main_c_3 : IVec S_ 1 := constantI S_ 1 1#1
  let main_v12 : IVec S_ 1 := (fun x v => Host.reduce IntOp.andi x v reducesTo_S32768x4_S_d0_1 h_S_) main_v11 main_c_3
  let main_v13 : IVec S_ 1 := andi main_v8 main_v12
  let main_v14 : FVec F S1536x256 .f32 := Host.absf main_arg3
  let main_cst_4 : FVec F S_ .f32 := constant S_ .f32 0x7F800000#32
  let main_v15 : FVec F S1536x256 .f32 := broadcastInDim S1536x256 ![] bcast_S_S1536x256 main_cst_4
  let main_v16 : IVec S1536x256 1 := cmpf .olt main_v14 main_v15
  fn_part1 (F := F) main_arg4 main_arg5 main_arg6 main_arg7 main_arg8 main_v13 main_v16
-- ==== Kernel.lean ====
abbrev S32768x256 : Shape := ⟨2, ![32768, 256]⟩
abbrev S32768x512 : Shape := ⟨2, ![32768, 512]⟩
abbrev S32768x4 : Shape := ⟨2, ![32768, 4]⟩
abbrev S1536x256 : Shape := ⟨2, ![1536, 256]⟩
abbrev S1536 : Shape := ⟨1, ![1536]⟩
abbrev S1536x512 : Shape := ⟨2, ![1536, 512]⟩
abbrev S1536x4 : Shape := ⟨2, ![1536, 4]⟩
abbrev S256x1536 : Shape := ⟨2, ![256, 1536]⟩
abbrev S512x1536 : Shape := ⟨2, ![512, 1536]⟩
abbrev S4x1536 : Shape := ⟨2, ![4, 1536]⟩
abbrev S1x1536 : Shape := ⟨2, ![1, 1536]⟩
abbrev S1024x256 : Shape := ⟨2, ![1024, 256]⟩
abbrev S1024x512 : Shape := ⟨2, ![1024, 512]⟩
abbrev S1024x4 : Shape := ⟨2, ![1024, 4]⟩
abbrev S1024x1536 : Shape := ⟨2, ![1024, 1536]⟩

abbrev nBuf : Space → Nat
  | .hbm => 19
  | .vmem => 13
  | .smem => 0
  | _ => 0

abbrev bufTy : (tb : Table) → Fin (tcTables nBuf tb) → BufTy
  | .hbm, ⟨0, _⟩ => ⟨S32768x256, .f32⟩
  | .hbm, ⟨1, _⟩ => ⟨S32768x512, .f32⟩
  | .hbm, ⟨2, _⟩ => ⟨S32768x4, .f32⟩
  | .hbm, ⟨3, _⟩ => ⟨S1536x256, .f32⟩
  | .hbm, ⟨4, _⟩ => ⟨S1536, .f32⟩
  | .hbm, ⟨5, _⟩ => ⟨S1536x512, .f32⟩
  | .hbm, ⟨6, _⟩ => ⟨S1536, .f32⟩
  | .hbm, ⟨7, _⟩ => ⟨S1536x4, .f32⟩
  | .hbm, ⟨8, _⟩ => ⟨S1536, .f32⟩
  | .hbm, ⟨9, _⟩ => ⟨S256x1536, .f32⟩
  | .hbm, ⟨10, _⟩ => ⟨S256x1536, .bf16⟩
  | .hbm, ⟨11, _⟩ => ⟨S512x1536, .f32⟩
  | .hbm, ⟨12, _⟩ => ⟨S512x1536, .bf16⟩
  | .hbm, ⟨13, _⟩ => ⟨S4x1536, .f32⟩
  | .hbm, ⟨14, _⟩ => ⟨S4x1536, .bf16⟩
  | .hbm, ⟨15, _⟩ => ⟨S1536, .f32⟩
  | .hbm, ⟨16, _⟩ => ⟨S1x1536, .f32⟩
  | .hbm, ⟨17, _⟩ => ⟨S1x1536, .f32⟩
  | .hbm, ⟨18, _⟩ => ⟨S32768x512, .f32⟩
  | .local _ .vmem, ⟨0, _⟩ => ⟨S1024x256, .f32⟩
  | .local _ .vmem, ⟨1, _⟩ => ⟨S1024x256, .f32⟩
  | .local _ .vmem, ⟨2, _⟩ => ⟨S1024x512, .f32⟩
  | .local _ .vmem, ⟨3, _⟩ => ⟨S1024x512, .f32⟩
  | .local _ .vmem, ⟨4, _⟩ => ⟨S1024x4, .f32⟩
  | .local _ .vmem, ⟨5, _⟩ => ⟨S1024x4, .f32⟩
  | .local _ .vmem, ⟨6, _⟩ => ⟨S256x1536, .bf16⟩
  | .local _ .vmem, ⟨7, _⟩ => ⟨S512x1536, .bf16⟩
  | .local _ .vmem, ⟨8, _⟩ => ⟨S4x1536, .bf16⟩
  | .local _ .vmem, ⟨9, _⟩ => ⟨S1x1536, .f32⟩
  | .local _ .vmem, ⟨10, _⟩ => ⟨S1x1536, .f32⟩
  | .local _ .vmem, ⟨11, _⟩ => ⟨S1024x512, .f32⟩
  | .local _ .vmem, ⟨12, _⟩ => ⟨S1024x512, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S1536x256_S256x1536_1_0 : S1536x256.Transposes [1, 0] S256x1536
  bitsLt_bf16_f32 : FTy.bits .bf16 < FTy.bits .f32
  transposes_S1536x512_S512x1536_1_0 : S1536x512.Transposes [1, 0] S512x1536
  transposes_S1536x4_S4x1536_1_0 : S1536x4.Transposes [1, 0] S4x1536
  shapeCasts_S1536_S1x1536 : S1536.ShapeCasts S1x1536
  inb_S1024x256_S1024x256_0_0 : ∀ a, (![0, 0] : Fin 2 → Nat) a + S1024x256.size a ≤ S1024x256.size a
  h_S1024x256 : 0 < S1024x256.numel
  inb_S1024x512_S1024x512_0_0 : ∀ a, (![0, 0] : Fin 2 → Nat) a + S1024x512.size a ≤ S1024x512.size a
  h_S1024x512 : 0 < S1024x512.numel
  inb_S1024x4_S1024x4_0_0 : ∀ a, (![0, 0] : Fin 2 → Nat) a + S1024x4.size a ≤ S1024x4.size a
  h_S1024x4 : 0 < S1024x4.numel
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S4x1536_S4x1536_0_0 : ∀ a, (![0, 0] : Fin 2 → Nat) a + S4x1536.size a ≤ S4x1536.size a
  h_S4x1536 : 0 < S4x1536.numel
  shapeCasts_S4x1536_S4x1536 : S4x1536.ShapeCasts S4x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  dot_S1024x256_S256x1536_S1024x1536_1_0_0_1_n_n_wf : DotDims.WF S1024x256 S256x1536 S1024x1536 [1] [0] [0] [1] [] []
  dot_S1024x4_S4x1536_S1024x1536_1_0_0_1_n_n_wf : DotDims.WF S1024x4 S4x1536 S1024x1536 [1] [0] [0] [1] [] []
  dot_S1024x512_S512x1536_S1024x1536_1_0_0_1_n_n_wf : DotDims.WF S1024x512 S512x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4.size a ≤ S32768x4.size a
  hwx0_2 : ∀ i : grid0.Coords, EltTy.bits .f32 = 32 ∨ (Rect.block (s := S32768x4) S1024x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1536.size a ≤ S256x1536.size a
  hwx0_3 : ∀ i : grid0.Coords, EltTy.bits .bf16 = 32 ∨ (Rect.block (s := S256x1536) S256x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1536.size a ≤ S512x1536.size a
  hwx0_4 : ∀ i : grid0.Coords, EltTy.bits .bf16 = 32 ∨ (Rect.block (s := S512x1536) S512x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1536.size a ≤ S4x1536.size a
  hwx0_5 : ∀ i : grid0.Coords, EltTy.bits .bf16 = 32 ∨ (Rect.block (s := S4x1536) S4x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x1536.size a
  hwx0_6 : ∀ i : grid0.Coords, EltTy.bits .f32 = 32 ∨ (Rect.block (s := S1x1536) S1x1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1536.size a ≤ S1x1536.size a
  hwx0_7 : ∀ i : grid0.Coords, EltTy.bits .f32 = 32 ∨ (Rect.block (s := S1x1536) S1x1536.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S32768x512.size a
  hwx0_8 : ∀ i : grid0.Coords, EltTy.bits .f32 = 32 ∨ (Rect.block (s := S32768x512) S1024x512.size (cc0_transform_8 i) (hinb0_8 i)).WholeWords (EltTy.packing .f32)

variable [Facts₀]

def dot_S1024x256_S256x1536_S1024x1536_1_0_0_1_n_n : DotDims S1024x256 S256x1536 S1024x1536 where
  lhsContracting := [1]
  rhsContracting := [0]
  lhsNonContracting := [0]
  rhsNonContracting := [1]
  lhsBatch := []
  rhsBatch := []
  wf := dot_S1024x256_S256x1536_S1024x1536_1_0_0_1_n_n_wf
def dot_S1024x4_S4x1536_S1024x1536_1_0_0_1_n_n : DotDims S1024x4 S4x1536 S1024x1536 where
  lhsContracting := [1]
  rhsContracting := [0]
  lhsNonContracting := [0]
  rhsNonContracting := [1]
  lhsBatch := []
  rhsBatch := []
  wf := dot_S1024x4_S4x1536_S1024x1536_1_0_0_1_n_n_wf
def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x256 : Shape := ⟨2, ![32768, 256]⟩
abbrev S32768x512 : Shape := ⟨2, ![32768, 512]⟩
abbrev S32768x4 : Shape := ⟨2, ![32768, 4]⟩
abbrev S1536x256 : Shape := ⟨2, ![1536, 256]⟩
abbrev S1536 : Shape := ⟨1, ![1536]⟩
abbrev S1536x512 : Shape := ⟨2, ![1536, 512]⟩
abbrev S1536x4 : Shape := ⟨2, ![1536, 4]⟩
abbrev S256x1536 : Shape := ⟨2, ![256, 1536]⟩
abbrev S32768x1536 : Shape := ⟨2, ![32768, 1536]⟩
abbrev S1x1536 : Shape := ⟨2, ![1, 1536]⟩
abbrev S512x1536 : Shape := ⟨2, ![512, 1536]⟩
abbrev S4x1536 : Shape := ⟨2, ![4, 1536]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x512, .f32⟩
  | .hbm, ⟨2, _⟩ => ⟨S32768x4, .f32⟩
  | .hbm, ⟨3, _⟩ => ⟨S1536x256, .f32⟩
  | .hbm, ⟨4, _⟩ => ⟨S1536, .f32⟩
  | .hbm, ⟨5, _⟩ => ⟨S1536x512, .f32⟩
  | .hbm, ⟨6, _⟩ => ⟨S1536, .f32⟩
  | .hbm, ⟨7, _⟩ => ⟨S1536x4, .f32⟩
  | .hbm, ⟨8, _⟩ => ⟨S1536, .f32⟩
  | .hbm, ⟨9, _⟩ => ⟨S256x1536, .f32⟩
  | .hbm, ⟨10, _⟩ => ⟨S32768x1536, .f32⟩
  | .hbm, ⟨11, _⟩ => ⟨S1x1536, .f32⟩
  | .hbm, ⟨12, _⟩ => ⟨S32768x1536, .f32⟩
  | .hbm, ⟨13, _⟩ => ⟨S32768x1536, .f32⟩
  | .hbm, ⟨14, _⟩ => ⟨S512x1536, .f32⟩
  | .hbm, ⟨15, _⟩ => ⟨S32768x1536, .f32⟩
  | .hbm, ⟨16, _⟩ => ⟨S1x1536, .f32⟩
  | .hbm, ⟨17, _⟩ => ⟨S32768x1536, .f32⟩
  | .hbm, ⟨18, _⟩ => ⟨S32768x1536, .f32⟩
  | .hbm, ⟨19, _⟩ => ⟨S4x1536, .f32⟩
  | .hbm, ⟨20, _⟩ => ⟨S32768x1536, .f32⟩
  | .hbm, ⟨21, _⟩ => ⟨S1x1536, .f32⟩
  | .hbm, ⟨22, _⟩ => ⟨S32768x1536, .f32⟩
  | .hbm, ⟨23, _⟩ => ⟨S32768x1536, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S32768x512, .f32⟩
  | .hbm, ⟨39, _⟩ => ⟨S32768x512, .f32⟩
  | .hbm, ⟨40, _⟩ => ⟨S_, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S_, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S32768x512, .f32⟩
  | .hbm, ⟨56, _⟩ => ⟨S32768x512, .f32⟩
  | .hbm, ⟨57, _⟩ => ⟨S32768x512, .f32⟩
  | .hbm, ⟨58, _⟩ => ⟨S_, .f32⟩
  | .hbm, ⟨59, _⟩ => ⟨S32768x512, .f32⟩
  | .hbm, ⟨60, _⟩ => ⟨S32768x512, .f32⟩
  | .hbm, ⟨61, _⟩ => ⟨S32768x512, .f32⟩
  | .hbm, ⟨62, _⟩ => ⟨S32768x512, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]

class Facts₀ : Prop where
  transposes_S1536x256_S256x1536_1_0 : S1536x256.Transposes [1, 0] S256x1536
  bcast_S1536_S1x1536_1 : S1536.BroadcastsInDim S1x1536 (![1] : Fin 1 → Fin S1x1536.rank)
  bcast_S1x1536_S32768x1536_0_1 : S1x1536.BroadcastsInDim S32768x1536 (![0, 1] : Fin 2 → Fin S32768x1536.rank)
  transposes_S1536x512_S512x1536_1_0 : S1536x512.Transposes [1, 0] S512x1536
  transposes_S1536x4_S4x1536_1_0 : S1536x4.Transposes [1, 0] S4x1536
  slices_S32768x1536_S32768x512_0_0 : S32768x1536.Slices ![0, 0] S32768x512
  slices_S32768x1536_S32768x512_0_512 : S32768x1536.Slices ![0, 512] S32768x512
  slices_S32768x1536_S32768x512_0_1024 : S32768x1536.Slices ![0, 1024] S32768x512
  bcast_S_S32768x512 : S_.BroadcastsInDim S32768x512 (![] : Fin 0 → Fin S32768x512.rank)
  dot_S32768x256_S256x1536_S32768x1536_1_0_0_1_n_n_wf : DotDims.WF S32768x256 S256x1536 S32768x1536 [1] [0] [0] [1] [] []
  dot_S32768x512_S512x1536_S32768x1536_1_0_0_1_n_n_wf : DotDims.WF S32768x512 S512x1536 S32768x1536 [1] [0] [0] [1] [] []
  dot_S32768x4_S4x1536_S32768x1536_1_0_0_1_n_n_wf : DotDims.WF S32768x4 S4x1536 S32768x1536 [1] [0] [0] [1] [] []

variable [Facts₀]

def dot_S32768x256_S256x1536_S32768x1536_1_0_0_1_n_n : DotDims S32768x256 S256x1536 S32768x1536 where
  lhsContracting := [1]
  rhsContracting := [0]
  lhsNonContracting := [0]
  rhsNonContracting := [1]
  lhsBatch := []
  rhsBatch := []
  wf := dot_S32768x256_S256x1536_S32768x1536_1_0_0_1_n_n_wf
def dot_S32768x512_S512x1536_S32768x1536_1_0_0_1_n_n : DotDims S32768x512 S512x1536 S32768x1536 where
  lhsContracting := [1]
  rhsContracting := [0]
  lhsNonContracting := [0]
  rhsNonContracting := [1]
  lhsBatch := []
  rhsBatch := []
  wf := dot_S32768x512_S512x1536_S32768x1536_1_0_0_1_n_n_wf
def dot_S32768x4_S4x1536_S32768x1536_1_0_0_1_n_n : DotDims S32768x4 S4x1536 S32768x1536 where
  lhsContracting := [1]
  rhsContracting := [0]
  lhsNonContracting := [0]
  rhsNonContracting := [1]
  lhsBatch := []
  rhsBatch := []
  wf := dot_S32768x4_S4x1536_S32768x1536_1_0_0_1_n_n_wf

class Facts : Prop extends Facts₀ where

variable [Facts]
-- ==== Proof.GruSpec.lean ====
/-
  The function both programs compute, as ONE function of the nine argument arrays, index by index, on the extended
  reals, and the regrouping of sums that joins the two arrangements of it.

  A gated recurrent cell with a third input. The 1536 output columns of the three weight matrices are three gate
  blocks of 512; for batch row `b` and hidden unit `j` the blocks are read at columns `j`, `j + 512`, `j + 1024`. With
      X(b,c) = Σ_k x(b,k) · W_ih(c,k) + b_ih(c)
      H(b,c) = Σ_k hx(b,k) · W_hh(c,k) + b_hh(c)
      V(b,c) = Σ_k vel(b,k) · W_vel(c,k) + b_vel(c)
  and σ z = 1 / (1 + e^(-z)), the cell is
      r  = σ ((X + H) + V)              at column j
      u  = σ ((X + H) + V)              at column j + 512
      n  = tanh ((X + V) + r · H)       at column j + 1024
      hy = u · hx(b,j) + (1 - u) · n.
  That is `hyAt`. The other arrangement, `hyAtFolded`, adds the x- and vel-products first and the two biases first,
      XV(b,c) = (Σ_k x(b,k) · W_ih(c,k) + Σ_k vel(b,k) · W_vel(c,k)) + (b_ih(c) + b_vel(c)),
  and uses XV + H where the first has (X + H) + V, and XV where the first has X + V. The two agree on every extended
  real: only commutativity and associativity of addition are used, which hold at the infinities too, so no finiteness
  of the inputs is needed.
-/
import Idealize.ShloMosaic.PureOps.Ideal
import Idealize.ShloMosaic.PureOps.IdealRules
import Idealize.ShloMosaic.Lib.ValueIdx

noncomputable section

namespace Cert.GruCell

open Idealize.ShloMosaic Idealize.ShloMosaic.ValueIdx

/-- A matrix, and a vector, of extended reals over literal extents. -/
abbrev Mat (a b : Nat) : Type := (⟨2, ![a, b]⟩ : Shape).Idx → EReal
abbrev Row (a : Nat) : Type := (⟨1, ![a]⟩ : Shape).Idx → EReal

/-- Hidden unit `j`'s column in the reset block, the update block and the candidate block of the 1536 gate columns. -/
def colR (j : Fin 512) : Fin 1536 := ⟨j.val, by have := j.isLt; omega⟩
def colU (j : Fin 512) : Fin 1536 := ⟨j.val + 512, by have := j.isLt; omega⟩
def colN (j : Fin 512) : Fin 1536 := ⟨j.val + 1024, by have := j.isLt; omega⟩

/-- Row `b` of `inp` against row `c` of `W`: the product `inp · Wᵀ` at `(b, c)`. -/
def proj {K : Nat} (inp : Mat 32768 K) (W : Mat 1536 K) (b : Fin 32768) (c : Fin 1536) : EReal :=
  ∑ k : Fin K, inp (ix2 b k) * W (ix2 c k)

/-- One input's gate pre-activation: the product plus that input's bias. -/
def gate {K : Nat} (inp : Mat 32768 K) (W : Mat 1536 K) (bias : Row 1536) (b : Fin 32768) (c : Fin 1536) : EReal :=
  proj inp W b c + bias (ix1 c)

/-- The number one as both programs write it, the single-precision pattern of `1.0`. -/
abbrev one : EReal := Ideal.ofBits .f32 0x3F800000#32

/-- That pattern denotes the real number one. -/
theorem one_eq : one = 1 := IdealRules.sign_bit.ideal_onePat .f32

/-- The cell at batch row `b`, hidden unit `j`, each input's gate formed separately and the three then added. -/
def hyAt (x : Mat 32768 256) (hx : Mat 32768 512) (vel : Mat 32768 4) (Wih : Mat 1536 256) (bih : Row 1536)
    (Whh : Mat 1536 512) (bhh : Row 1536) (Wvel : Mat 1536 4) (bvel : Row 1536) (b : Fin 32768) (j : Fin 512) : EReal :=
  Ideal.logistic ((gate x Wih bih b (colU j) + gate hx Whh bhh b (colU j)) + gate vel Wvel bvel b (colU j)) * hx (ix2 b j)
    + (one - Ideal.logistic ((gate x Wih bih b (colU j) + gate hx Whh bhh b (colU j)) + gate vel Wvel bvel b (colU j)))
      * Ideal.tanh ((gate x Wih bih b (colN j) + gate vel Wvel bvel b (colN j))
          + Ideal.logistic ((gate x Wih bih b (colR j) + gate hx Whh bhh b (colR j)) + gate vel Wvel bvel b (colR j))
            * gate hx Whh bhh b (colN j))

/-- The whole result array. -/
def hy (x : Mat 32768 256) (hx : Mat 32768 512) (vel : Mat 32768 4) (Wih : Mat 1536 256) (bih : Row 1536)
    (Whh : Mat 1536 512) (bhh : Row 1536) (Wvel : Mat 1536 4) (bvel : Row 1536) : Mat 32768 512 :=
  fun i => hyAt x hx vel Wih bih Whh bhh Wvel bvel (i 0) (i 1)

/-- The folded bias: the x-path's and the vel-path's biases added, at gate column `c`. -/
def biasSum (bih bvel : Row 1536) (c : Fin 1536) : EReal := bih (ix1 c) + bvel (ix1 c)

/-- The x- and vel-paths folded: their two products added, then their two biases added. -/
def gateXV (x : Mat 32768 256) (vel : Mat 32768 4) (Wih : Mat 1536 256) (bih : Row 1536) (Wvel : Mat 1536 4) (bvel : Row 1536)
    (b : Fin 32768) (c : Fin 1536) : EReal :=
  (proj x Wih b c + proj vel Wvel b c) + biasSum bih bvel c

/-- The cell with the x- and vel-paths folded into one gate tensor and the h-path kept apart. -/
def hyAtFolded (x : Mat 32768 256) (hx : Mat 32768 512) (vel : Mat 32768 4) (Wih : Mat 1536 256) (bih : Row 1536)
    (Whh : Mat 1536 512) (bhh : Row 1536) (Wvel : Mat 1536 4) (bvel : Row 1536) (b : Fin 32768) (j : Fin 512) : EReal :=
  Ideal.logistic (gateXV x vel Wih bih Wvel bvel b (colU j) + gate hx Whh bhh b (colU j)) * hx (ix2 b j)
    + (one - Ideal.logistic (gateXV x vel Wih bih Wvel bvel b (colU j) + gate hx Whh bhh b (colU j)))
      * Ideal.tanh (gateXV x vel Wih bih Wvel bvel b (colN j)
          + Ideal.logistic (gateXV x vel Wih bih Wvel bvel b (colR j) + gate hx Whh bhh b (colR j))
            * gate hx Whh bhh b (colN j))

/-- Four summands paired the other way: `(a + v) + (p + q) = (a + p) + (v + q)`. -/
theorem regroup_pairs (a v p q : EReal) : (a + v) + (p + q) = (a + p) + (v + q) := add_add_add_comm a v p q

/-- The same with a fifth summand moved inside: `((a + v) + (p + q)) + h = ((a + p) + h) + (v + q)`. -/
theorem regroup_with (a v p q h : EReal) : ((a + v) + (p + q)) + h = ((a + p) + h) + (v + q) := by
  rw [add_add_add_comm a v p q, add_right_comm]

/-- The folded gate plus the h-gate is the three separate gates added. -/
theorem gateXV_add_gate (x : Mat 32768 256) (hx : Mat 32768 512) (vel : Mat 32768 4) (Wih : Mat 1536 256) (bih : Row 1536)
    (Whh : Mat 1536 512) (bhh : Row 1536) (Wvel : Mat 1536 4) (bvel : Row 1536) (b : Fin 32768) (c : Fin 1536) :
    gateXV x vel Wih bih Wvel bvel b c + gate hx Whh bhh b c
      = (gate x Wih bih b c + gate hx Whh bhh b c) + gate vel Wvel bvel b c :=
  regroup_with (proj x Wih b c) (proj vel Wvel b c) (bih (ix1 c)) (bvel (ix1 c)) (gate hx Whh bhh b c)

/-- The folded gate is the x-gate plus the vel-gate. -/
theorem gateXV_eq (x : Mat 32768 256) (vel : Mat 32768 4) (Wih : Mat 1536 256) (bih : Row 1536) (Wvel : Mat 1536 4) (bvel : Row 1536)
    (b : Fin 32768) (c : Fin 1536) :
    gateXV x vel Wih bih Wvel bvel b c = gate x Wih bih b c + gate vel Wvel bvel b c :=
  regroup_pairs (proj x Wih b c) (proj vel Wvel b c) (bih (ix1 c)) (bvel (ix1 c))

/-- THE TWO ARRANGEMENTS AGREE, at every extended-real input. -/
theorem hyAtFolded_eq (x : Mat 32768 256) (hx : Mat 32768 512) (vel : Mat 32768 4) (Wih : Mat 1536 256) (bih : Row 1536)
    (Whh : Mat 1536 512) (bhh : Row 1536) (Wvel : Mat 1536 4) (bvel : Row 1536) (b : Fin 32768) (j : Fin 512) :
    hyAtFolded x hx vel Wih bih Whh bhh Wvel bvel b j = hyAt x hx vel Wih bih Whh bhh Wvel bvel b j := by
  unfold hyAtFolded hyAt
  rw [gateXV_add_gate x hx vel Wih bih Whh bhh Wvel bvel b (colU j),
    gateXV_add_gate x hx vel Wih bih Whh bhh Wvel bvel b (colR j),
    gateXV_eq x vel Wih bih Wvel bvel b (colN j)]

end Cert.GruCell

end
-- ==== Proof.RefIsGru.lean ====
/-
  The reference, read one operation at a time, computes the cell `GruCell.hy` of its nine arguments.

  Each of its three gate tensors is a product `input · weightᵀ` (a transpose followed by a contraction over the
  transposed matrix's first axis, so the sum runs over the weight's SECOND axis) plus the bias broadcast along the
  rows: at `(b, c)` that is `GruCell.gate`. The nine column slices read the three tensors at columns `j`, `j + 512`,
  `j + 1024`. The reference spells the sigmoid as `1 / (1 + e^(-z))` with the literal `1.0`; that literal denotes the
  number one, and the quotient is then the logistic function of the extended reals as the library defines it.
-/
import proofs.«108542_j81157702025454_2_alg».proof.Proof.Gen.ReferenceIdeal.Read
import proofs.«108542_j81157702025454_2_alg».proof.Proof.GruSpec

noncomputable section

namespace Cert.ReferenceIdeal.RefGru

open Cert.ReferenceIdeal Cert.ReferenceIdeal.Read Idealize.ShloMosaic Idealize.ShloMosaic.ValueIdx

/-- The x-path: `x · W_ihᵀ + b_ih` at `(b, c)`. -/
theorem gateX_stage (x0 : (⟨S32768x256, .f32⟩ : BufTy).Contents (Elt Ideal)) (x3 : (⟨S1536x256, .f32⟩ : BufTy).Contents (Elt Ideal))
    (x4 : (⟨S1536, .f32⟩ : BufTy).Contents (Elt Ideal)) (b : Fin 32768) (c : Fin 1536) :
    val_main_v4 (F := Ideal) x0 x3 x4 (ix2 b c) = GruCell.gate (K := 256) x0 x3 x4 b c := by
  have eb : idx_main_v2 (idx_main_v3 (ix2 b c)) = ix1 c :=
    funext fun a => Fin.ext (by match a with | ⟨0, _⟩ => rfl)
  have el : ∀ k : Fin 256, lidx_main_v1 (ix2 b c) k = ix2 b k :=
    fun k => funext fun a => Fin.ext (by match a with | ⟨0, _⟩ => rfl | ⟨1, _⟩ => rfl)
  have er : ∀ k : Fin 256, idx_main_v0 (ridx_main_v1 (ix2 b c) k) = ix2 c k :=
    fun k => funext fun a => Fin.ext (by match a with | ⟨0, _⟩ => rfl | ⟨1, _⟩ => rfl)
  rw [val_main_v4_apply, val_main_v1_apply, val_main_v3_apply, val_main_v2_apply]
  unfold GruCell.gate GruCell.proj
  simp only [val_main_v0_apply, eb, el, er, Ideal.addf_def]

/-- The h-path: `hx · W_hhᵀ + b_hh` at `(b, c)`. -/
theorem gateH_stage (x1 : (⟨S32768x512, .f32⟩ : BufTy).Contents (Elt Ideal)) (x5 : (⟨S1536x512, .f32⟩ : BufTy).Contents (Elt Ideal))
    (x6 : (⟨S1536, .f32⟩ : BufTy).Contents (Elt Ideal)) (b : Fin 32768) (c : Fin 1536) :
    val_main_v9 (F := Ideal) x1 x5 x6 (ix2 b c) = GruCell.gate (K := 512) x1 x5 x6 b c := by
  have eb : idx_main_v7 (idx_main_v8 (ix2 b c)) = ix1 c :=
    funext fun a => Fin.ext (by match a with | ⟨0, _⟩ => rfl)
  have el : ∀ k : Fin 512, lidx_main_v6 (ix2 b c) k = ix2 b k :=
    fun k => funext fun a => Fin.ext (by match a with | ⟨0, _⟩ => rfl | ⟨1, _⟩ => rfl)
  have er : ∀ k : Fin 512, idx_main_v5 (ridx_main_v6 (ix2 b c) k) = ix2 c k :=
    fun k => funext fun a => Fin.ext (by match a with | ⟨0, _⟩ => rfl | ⟨1, _⟩ => rfl)
  rw [val_main_v9_apply, val_main_v6_apply, val_main_v8_apply, val_main_v7_apply]
  unfold GruCell.gate GruCell.proj
  simp only [val_main_v5_apply, eb, el, er, Ideal.addf_def]

/-- The vel-path: `vel · W_velᵀ + b_vel` at `(b, c)`. -/
theorem gateV_stage (x2 : (⟨S32768x4, .f32⟩ : BufTy).Contents (Elt Ideal)) (x7 : (⟨S1536x4, .f32⟩ : BufTy).Contents (Elt Ideal))
    (x8 : (⟨S1536, .f32⟩ : BufTy).Contents (Elt Ideal)) (b : Fin 32768) (c : Fin 1536) :
    val_main_v14 (F := Ideal) x2 x7 x8 (ix2 b c) = GruCell.gate (K := 4) x2 x7 x8 b c := by
  have eb : idx_main_v12 (idx_main_v13 (ix2 b c)) = ix1 c :=
    funext fun a => Fin.ext (by match a with | ⟨0, _⟩ => rfl)
  have el : ∀ k : Fin 4, lidx_main_v11 (ix2 b c) k = ix2 b k :=
    fun k => funext fun a => Fin.ext (by match a with | ⟨0, _⟩ => rfl | ⟨1, _⟩ => rfl)
  have er : ∀ k : Fin 4, idx_main_v10 (ridx_main_v11 (ix2 b c) k) = ix2 c k :=
    fun k => funext fun a => Fin.ext (by match a with | ⟨0, _⟩ => rfl | ⟨1, _⟩ => rfl)
  rw [val_main_v14_apply, val_main_v11_apply, val_main_v13_apply, val_main_v12_apply]
  unfold GruCell.gate GruCell.proj
  simp only [val_main_v10_apply, eb, el, er, Ideal.addf_def]

/-- THE LAST STAGE at batch row `b`, hidden unit `j`, is the cell there. -/
theorem result_at (x0 : (⟨S32768x256, .f32⟩ : BufTy).Contents (Elt Ideal)) (x1 : (⟨S32768x512, .f32⟩ : BufTy).Contents (Elt Ideal)) (x2 : (⟨S32768x4, .f32⟩ : BufTy).Contents (Elt Ideal))
    (x3 : (⟨S1536x256, .f32⟩ : BufTy).Contents (Elt Ideal)) (x4 : (⟨S1536, .f32⟩ : BufTy).Contents (Elt Ideal)) (x5 : (⟨S1536x512, .f32⟩ : BufTy).Contents (Elt Ideal)) (x6 : (⟨S1536, .f32⟩ : BufTy).Contents (Elt Ideal))
    (x7 : (⟨S1536x4, .f32⟩ : BufTy).Contents (Elt Ideal)) (x8 : (⟨S1536, .f32⟩ : BufTy).Contents (Elt Ideal)) (b : Fin 32768) (j : Fin 512) :
    val_main_v48 (F := Ideal) x0 x1 x2 x3 x4 x5 x6 x7 x8 (ix2 b j) = GruCell.hyAt x0 x1 x2 x3 x4 x5 x6 x7 x8 b j := by
  have e15 : idx_main_v15 (ix2 b j) = ix2 b (GruCell.colR j) :=
    funext fun a => Fin.ext (by
      match a with
      | ⟨0, _⟩ => rfl
      | ⟨1, _⟩ => rfl)
  have e16 : idx_main_v16 (ix2 b j) = ix2 b (GruCell.colU j) :=
    funext fun a => Fin.ext (by
      match a with
      | ⟨0, _⟩ => rfl
      | ⟨1, _⟩ => show 512 + j.val = j.val + 512; omega)
  have e17 : idx_main_v17 (ix2 b j) = ix2 b (GruCell.colN j) :=
    funext fun a => Fin.ext (by
      match a with
      | ⟨0, _⟩ => rfl
      | ⟨1, _⟩ => show 1024 + j.val = j.val + 1024; omega)
  have e18 : idx_main_v18 (ix2 b j) = ix2 b (GruCell.colR j) :=
    funext fun a => Fin.ext (by
      match a with
      | ⟨0, _⟩ => rfl
      | ⟨1, _⟩ => rfl)
  have e19 : idx_main_v19 (ix2 b j) = ix2 b (GruCell.colU j) :=
    funext fun a => Fin.ext (by
      match a with
      | ⟨0, _⟩ => rfl
      | ⟨1, _⟩ => show 512 + j.val = j.val + 512; omega)
  have e20 : idx_main_v20 (ix2 b j) = ix2 b (GruCell.colN j) :=
    funext fun a => Fin.ext (by
      match a with
      | ⟨0, _⟩ => rfl
      | ⟨1, _⟩ => show 1024 + j.val = j.val + 1024; omega)
  have e21 : idx_main_v21 (ix2 b j) = ix2 b (GruCell.colR j) :=
    funext fun a => Fin.ext (by
      match a with
      | ⟨0, _⟩ => rfl
      | ⟨1, _⟩ => rfl)
  have e22 : idx_main_v22 (ix2 b j) = ix2 b (GruCell.colU j) :=
    funext fun a => Fin.ext (by
      match a with
      | ⟨0, _⟩ => rfl
      | ⟨1, _⟩ => show 512 + j.val = j.val + 512; omega)
  have e23 : idx_main_v23 (ix2 b j) = ix2 b (GruCell.colN j) :=
    funext fun a => Fin.ext (by
      match a with
      | ⟨0, _⟩ => rfl
      | ⟨1, _⟩ => show 1024 + j.val = j.val + 1024; omega)
  simp only [val_main_v48_apply, val_main_v47_apply, val_main_v46_apply, val_main_v45_apply, val_main_cst_3_apply,
    val_main_v44_apply, val_main_v43_apply, val_main_v42_apply, val_main_v41_apply, val_main_v40_apply, val_main_v39_apply,
    val_main_v38_apply, val_main_cst_2_apply, val_main_v37_apply, val_main_v36_apply, val_main_cst_1_apply,
    val_main_v35_apply, val_main_v34_apply, val_main_v33_apply, val_main_v32_apply, val_main_v31_apply, val_main_v30_apply,
    val_main_cst_0_apply, val_main_v29_apply, val_main_v28_apply, val_main_cst_apply, val_main_v27_apply, val_main_v26_apply,
    val_main_v25_apply, val_main_v24_apply, val_main_v23_apply, val_main_v22_apply, val_main_v21_apply, val_main_v20_apply,
    val_main_v19_apply, val_main_v18_apply, val_main_v17_apply, val_main_v16_apply, val_main_v15_apply,
    e15, e16, e17, e18, e19, e20, e21, e22, e23, gateX_stage, gateH_stage, gateV_stage,
    Ideal.addf_def, Ideal.subf_def, Ideal.mulf_def, Ideal.hostDivf_def, Ideal.hostUnary_exp_def, Ideal.hostUnary_tanh_def,
    Ideal.hostNegf_def, Ideal.negf_def, Ideal.ofBits_def]
  unfold GruCell.hyAt Ideal.logistic GruCell.one
  rw [show Ideal.ofBits .f32 0x3F800000#32 = (1 : EReal) from GruCell.one_eq]

/-- THE REFERENCE'S RESULT ARRAY is the cell of its arguments. -/
theorem result_eq (x0 : (⟨S32768x256, .f32⟩ : BufTy).Contents (Elt Ideal)) (x1 : (⟨S32768x512, .f32⟩ : BufTy).Contents (Elt Ideal)) (x2 : (⟨S32768x4, .f32⟩ : BufTy).Contents (Elt Ideal))
    (x3 : (⟨S1536x256, .f32⟩ : BufTy).Contents (Elt Ideal)) (x4 : (⟨S1536, .f32⟩ : BufTy).Contents (Elt Ideal)) (x5 : (⟨S1536x512, .f32⟩ : BufTy).Contents (Elt Ideal)) (x6 : (⟨S1536, .f32⟩ : BufTy).Contents (Elt Ideal))
    (x7 : (⟨S1536x4, .f32⟩ : BufTy).Contents (Elt Ideal)) (x8 : (⟨S1536, .f32⟩ : BufTy).Contents (Elt Ideal)) :
    val_main_v48 (F := Ideal) x0 x1 x2 x3 x4 x5 x6 x7 x8 = GruCell.hy x0 x1 x2 x3 x4 x5 x6 x7 x8 := by
  funext i
  obtain ⟨b, j, rfl⟩ : ∃ (b : Fin 32768) (j : Fin 512), i = ix2 b j := ⟨i 0, i 1, eq_ix2 i⟩
  exact result_at x0 x1 x2 x3 x4 x5 x6 x7 x8 b j

end Cert.ReferenceIdeal.RefGru

end
-- ==== Proof.KernelGates.lean ====
/-
  The two gate tensors the kernel body forms from its loaded blocks, read at a row `p` of the batch tile and a gate
  column `c`, on the extended reals.

  The body casts its three activation blocks to half precision (the identity on the extended reals), multiplies each
  by its pre-transposed weight block into a zero accumulator, and adds a bias row broadcast down the 1024 rows:
      folded gate (p, c) = (Σ_k x(p,k) · Wx(k,c) + Σ_k vel(p,k) · Wv(k,c)) + bias_xv(0,c)
      h gate (p, c)      =  Σ_k hx(p,k) · Wh(k,c) + bias_h(0,c).
  A product accumulated into zero is the plain sum over the contracted axis; the shape casts are to the same shape.
-/
import proofs.«108542_j81157702025454_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gates

open Cert.KernelIdeal Cert.KernelIdeal.Gen Idealize.ShloMosaic Idealize.ShloMosaic.ValueIdx

/-! ### The `[1024, 256] × [256, 1536]` product -/

theorem lhs0_256 (i : S1024x1536.Idx) (q : dot_S1024x256_S256x1536_S1024x1536_1_0_0_1_n_n.contr.Idx) : (dot_S1024x256_S256x1536_S1024x1536_1_0_0_1_n_n.lhsIdx i q 0).val = (i 0).val := by
  unfold DotDims.lhsIdx
  rw [dif_neg (show ¬(0 : Fin S1024x256.rank) ∈ dot_S1024x256_S256x1536_S1024x1536_1_0_0_1_n_n.lhsBatch by decide), dif_pos (show (0 : Fin S1024x256.rank) ∈ dot_S1024x256_S256x1536_S1024x1536_1_0_0_1_n_n.lhsNonContracting by decide)]
  rfl
theorem lhs1_256 (i : S1024x1536.Idx) (q : dot_S1024x256_S256x1536_S1024x1536_1_0_0_1_n_n.contr.Idx) : (dot_S1024x256_S256x1536_S1024x1536_1_0_0_1_n_n.lhsIdx i q 1).val = (q ⟨0, by decide⟩).val :=
  dot_S1024x256_S256x1536_S1024x1536_1_0_0_1_n_n.lhsIdx_val_of_single rfl i q
theorem rhs0_256 (i : S1024x1536.Idx) (q : dot_S1024x256_S256x1536_S1024x1536_1_0_0_1_n_n.contr.Idx) : (dot_S1024x256_S256x1536_S1024x1536_1_0_0_1_n_n.rhsIdx i q 0).val = (q ⟨0, by decide⟩).val :=
  dot_S1024x256_S256x1536_S1024x1536_1_0_0_1_n_n.rhsIdx_val_of_single rfl i q
theorem rhs1_256 (i : S1024x1536.Idx) (q : dot_S1024x256_S256x1536_S1024x1536_1_0_0_1_n_n.contr.Idx) : (dot_S1024x256_S256x1536_S1024x1536_1_0_0_1_n_n.rhsIdx i q 1).val = (i 1).val := by
  unfold DotDims.rhsIdx
  rw [dif_neg (show ¬(1 : Fin S256x1536.rank) ∈ dot_S1024x256_S256x1536_S1024x1536_1_0_0_1_n_n.rhsBatch by decide), dif_pos (show (1 : Fin S256x1536.rank) ∈ dot_S1024x256_S256x1536_S1024x1536_1_0_0_1_n_n.rhsNonContracting by decide)]
  rfl

/-- The product accumulated into zero, at row `p` and column `c`, is `Σ_k l(p,k) · r(k,c)`: no rounding and no order of
    accumulation is left in it on the extended reals. -/
theorem mm_256_at (l : FVec Ideal S1024x256 .bf16) (r : FVec Ideal S256x1536 .bf16) (p : Fin 1024) (c : Fin 1536) :
    matmul dot_S1024x256_S256x1536_S1024x1536_1_0_0_1_n_n none l r (constant (F := Ideal) S1024x1536 .f32 0x00000000#32) (ix2 p c)
      = ∑ k : Fin 256, l (ix2 p k) * r (ix2 k c) := by
  show FloatOps.matmul dot_S1024x256_S256x1536_S1024x1536_1_0_0_1_n_n none l r (constant (F := Ideal) S1024x1536 .f32 0x00000000#32) (ix2 p c) = _
  rw [Ideal.matmul_constant_zero_apply, ← Equiv.sum_comp (contrEquiv1 dot_S1024x256_S256x1536_S1024x1536_1_0_0_1_n_n 256 rfl rfl).symm]
  refine Finset.sum_congr rfl fun k _ => ?_
  have hk := contrEquiv1_symm_val dot_S1024x256_S256x1536_S1024x1536_1_0_0_1_n_n 256 rfl rfl k
  have el : dot_S1024x256_S256x1536_S1024x1536_1_0_0_1_n_n.lhsIdx (ix2 p c) ((contrEquiv1 dot_S1024x256_S256x1536_S1024x1536_1_0_0_1_n_n 256 rfl rfl).symm k) = ix2 p k := funext fun a => Fin.ext (by
    match a with
    | ⟨0, _⟩ => exact lhs0_256 _ _
    | ⟨1, _⟩ => exact (lhs1_256 _ _).trans hk)
  have er : dot_S1024x256_S256x1536_S1024x1536_1_0_0_1_n_n.rhsIdx (ix2 p c) ((contrEquiv1 dot_S1024x256_S256x1536_S1024x1536_1_0_0_1_n_n 256 rfl rfl).symm k) = ix2 k c := funext fun a => Fin.ext (by
    match a with
    | ⟨0, _⟩ => exact (rhs0_256 _ _).trans hk
    | ⟨1, _⟩ => exact rhs1_256 _ _)
  rw [el, er]

/-! ### The `[1024, 4] × [4, 1536]` product -/

theorem lhs0_4 (i : S1024x1536.Idx) (q : dot_S1024x4_S4x1536_S1024x1536_1_0_0_1_n_n.contr.Idx) : (dot_S1024x4_S4x1536_S1024x1536_1_0_0_1_n_n.lhsIdx i q 0).val = (i 0).val := by
  unfold DotDims.lhsIdx
  rw [dif_neg (show ¬(0 : Fin S1024x4.rank) ∈ dot_S1024x4_S4x1536_S1024x1536_1_0_0_1_n_n.lhsBatch by decide), dif_pos (show (0 : Fin S1024x4.rank) ∈ dot_S1024x4_S4x1536_S1024x1536_1_0_0_1_n_n.lhsNonContracting by decide)]
  rfl
theorem lhs1_4 (i : S1024x1536.Idx) (q : dot_S1024x4_S4x1536_S1024x1536_1_0_0_1_n_n.contr.Idx) : (dot_S1024x4_S4x1536_S1024x1536_1_0_0_1_n_n.lhsIdx i q 1).val = (q ⟨0, by decide⟩).val :=
  dot_S1024x4_S4x1536_S1024x1536_1_0_0_1_n_n.lhsIdx_val_of_single rfl i q
theorem rhs0_4 (i : S1024x1536.Idx) (q : dot_S1024x4_S4x1536_S1024x1536_1_0_0_1_n_n.contr.Idx) : (dot_S1024x4_S4x1536_S1024x1536_1_0_0_1_n_n.rhsIdx i q 0).val = (q ⟨0, by decide⟩).val :=
  dot_S1024x4_S4x1536_S1024x1536_1_0_0_1_n_n.rhsIdx_val_of_single rfl i q
theorem rhs1_4 (i : S1024x1536.Idx) (q : dot_S1024x4_S4x1536_S1024x1536_1_0_0_1_n_n.contr.Idx) : (dot_S1024x4_S4x1536_S1024x1536_1_0_0_1_n_n.rhsIdx i q 1).val = (i 1).val := by
  unfold DotDims.rhsIdx
  rw [dif_neg (show ¬(1 : Fin S4x1536.rank) ∈ dot_S1024x4_S4x1536_S1024x1536_1_0_0_1_n_n.rhsBatch by decide), dif_pos (show (1 : Fin S4x1536.rank) ∈ dot_S1024x4_S4x1536_S1024x1536_1_0_0_1_n_n.rhsNonContracting by decide)]
  rfl

/-- The product accumulated into zero, at row `p` and column `c`, is `Σ_k l(p,k) · r(k,c)`: no rounding and no order of
    accumulation is left in it on the extended reals. -/
theorem mm_4_at (l : FVec Ideal S1024x4 .bf16) (r : FVec Ideal S4x1536 .bf16) (p : Fin 1024) (c : Fin 1536) :
    matmul dot_S1024x4_S4x1536_S1024x1536_1_0_0_1_n_n none l r (constant (F := Ideal) S1024x1536 .f32 0x00000000#32) (ix2 p c)
      = ∑ k : Fin 4, l (ix2 p k) * r (ix2 k c) := by
  show FloatOps.matmul dot_S1024x4_S4x1536_S1024x1536_1_0_0_1_n_n none l r (constant (F := Ideal) S1024x1536 .f32 0x00000000#32) (ix2 p c) = _
  rw [Ideal.matmul_constant_zero_apply, ← Equiv.sum_comp (contrEquiv1 dot_S1024x4_S4x1536_S1024x1536_1_0_0_1_n_n 4 rfl rfl).symm]
  refine Finset.sum_congr rfl fun k _ => ?_
  have hk := contrEquiv1_symm_val dot_S1024x4_S4x1536_S1024x1536_1_0_0_1_n_n 4 rfl rfl k
  have el : dot_S1024x4_S4x1536_S1024x1536_1_0_0_1_n_n.lhsIdx (ix2 p c) ((contrEquiv1 dot_S1024x4_S4x1536_S1024x1536_1_0_0_1_n_n 4 rfl rfl).symm k) = ix2 p k := funext fun a => Fin.ext (by
    match a with
    | ⟨0, _⟩ => exact lhs0_4 _ _
    | ⟨1, _⟩ => exact (lhs1_4 _ _).trans hk)
  have er : dot_S1024x4_S4x1536_S1024x1536_1_0_0_1_n_n.rhsIdx (ix2 p c) ((contrEquiv1 dot_S1024x4_S4x1536_S1024x1536_1_0_0_1_n_n 4 rfl rfl).symm k) = ix2 k c := funext fun a => Fin.ext (by
    match a with
    | ⟨0, _⟩ => exact (rhs0_4 _ _).trans hk
    | ⟨1, _⟩ => exact rhs1_4 _ _)
  rw [el, er]

/-! ### The `[1024, 512] × [512, 1536]` product -/

theorem lhs0_512 (i : S1024x1536.Idx) (q : dot_S1024x512_S512x1536_S1024x1536_1_0_0_1_n_n.contr.Idx) : (dot_S1024x512_S512x1536_S1024x1536_1_0_0_1_n_n.lhsIdx i q 0).val = (i 0).val := by
  unfold DotDims.lhsIdx
  rw [dif_neg (show ¬(0 : Fin S1024x512.rank) ∈ dot_S1024x512_S512x1536_S1024x1536_1_0_0_1_n_n.lhsBatch by decide), dif_pos (show (0 : Fin S1024x512.rank) ∈ dot_S1024x512_S512x1536_S1024x1536_1_0_0_1_n_n.lhsNonContracting by decide)]
  rfl
theorem lhs1_512 (i : S1024x1536.Idx) (q : dot_S1024x512_S512x1536_S1024x1536_1_0_0_1_n_n.contr.Idx) : (dot_S1024x512_S512x1536_S1024x1536_1_0_0_1_n_n.lhsIdx i q 1).val = (q ⟨0, by decide⟩).val :=
  dot_S1024x512_S512x1536_S1024x1536_1_0_0_1_n_n.lhsIdx_val_of_single rfl i q
theorem rhs0_512 (i : S1024x1536.Idx) (q : dot_S1024x512_S512x1536_S1024x1536_1_0_0_1_n_n.contr.Idx) : (dot_S1024x512_S512x1536_S1024x1536_1_0_0_1_n_n.rhsIdx i q 0).val = (q ⟨0, by decide⟩).val :=
  dot_S1024x512_S512x1536_S1024x1536_1_0_0_1_n_n.rhsIdx_val_of_single rfl i q
theorem rhs1_512 (i : S1024x1536.Idx) (q : dot_S1024x512_S512x1536_S1024x1536_1_0_0_1_n_n.contr.Idx) : (dot_S1024x512_S512x1536_S1024x1536_1_0_0_1_n_n.rhsIdx i q 1).val = (i 1).val := by
  unfold DotDims.rhsIdx
  rw [dif_neg (show ¬(1 : Fin S512x1536.rank) ∈ dot_S1024x512_S512x1536_S1024x1536_1_0_0_1_n_n.rhsBatch by decide), dif_pos (show (1 : Fin S512x1536.rank) ∈ dot_S1024x512_S512x1536_S1024x1536_1_0_0_1_n_n.rhsNonContracting by decide)]
  rfl

/-- The product accumulated into zero, at row `p` and column `c`, is `Σ_k l(p,k) · r(k,c)`: no rounding and no order of
    accumulation is left in it on the extended reals. -/
theorem mm_512_at (l : FVec Ideal S1024x512 .bf16) (r : FVec Ideal S512x1536 .bf16) (p : Fin 1024) (c : Fin 1536) :
    matmul dot_S1024x512_S512x1536_S1024x1536_1_0_0_1_n_n none l r (constant (F := Ideal) S1024x1536 .f32 0x00000000#32) (ix2 p c)
      = ∑ k : Fin 512, l (ix2 p k) * r (ix2 k c) := by
  show FloatOps.matmul dot_S1024x512_S512x1536_S1024x1536_1_0_0_1_n_n none l r (constant (F := Ideal) S1024x1536 .f32 0x00000000#32) (ix2 p c) = _
  rw [Ideal.matmul_constant_zero_apply, ← Equiv.sum_comp (contrEquiv1 dot_S1024x512_S512x1536_S1024x1536_1_0_0_1_n_n 512 rfl rfl).symm]
  refine Finset.sum_congr rfl fun k _ => ?_
  have hk := contrEquiv1_symm_val dot_S1024x512_S512x1536_S1024x1536_1_0_0_1_n_n 512 rfl rfl k
  have el : dot_S1024x512_S512x1536_S1024x1536_1_0_0_1_n_n.lhsIdx (ix2 p c) ((contrEquiv1 dot_S1024x512_S512x1536_S1024x1536_1_0_0_1_n_n 512 rfl rfl).symm k) = ix2 p k := funext fun a => Fin.ext (by
    match a with
    | ⟨0, _⟩ => exact lhs0_512 _ _
    | ⟨1, _⟩ => exact (lhs1_512 _ _).trans hk)
  have er : dot_S1024x512_S512x1536_S1024x1536_1_0_0_1_n_n.rhsIdx (ix2 p c) ((contrEquiv1 dot_S1024x512_S512x1536_S1024x1536_1_0_0_1_n_n 512 rfl rfl).symm k) = ix2 k c := funext fun a => Fin.ext (by
    match a with
    | ⟨0, _⟩ => exact (rhs0_512 _ _).trans hk
    | ⟨1, _⟩ => exact rhs1_512 _ _)
  rw [el, er]

/-! ### The bias row down the tile -/

/-- A `[1, 1536]` row, cast to its own shape and broadcast to `[1024, 1536]`, reads its one row at every `p`. -/
theorem bias_at (v : FVec Ideal S1x1536 .f32) (p : Fin 1024) (c : Fin 1536) :
    broadcastTo S1024x1536 (shapeCast S1x1536 v shapeCasts_S1x1536_S1x1536) broadcasts_S1x1536_S1024x1536 (ix2 p c)
      = v (ix2 (0 : Fin 1) c) := by
  rw [shapeCast_self]
  exact broadcastTo_1b_ab_apply v broadcasts_S1x1536_S1024x1536 p c

/-! ### The two gate tensors -/

/-- THE FOLDED x/vel GATE at `(p, c)`. -/
theorem gateXV_at (xb : FVec Ideal S1024x256 .f32) (vb : FVec Ideal S1024x4 .f32) (wx : FVec Ideal S256x1536 .bf16)
    (wv : FVec Ideal S4x1536 .bf16) (bxv : FVec Ideal S1x1536 .f32) (p : Fin 1024) (c : Fin 1536) :
    k0_pay2 (F := Ideal) xb vb wx wv bxv (ix2 p c)
      = ((∑ k : Fin 256, xb (ix2 p k) * wx (ix2 k c)) + (∑ k : Fin 4, vb (ix2 p k) * wv (ix2 k c))) + bxv (ix2 (0 : Fin 1) c) := by
  have h1 := mm_256_at (truncf .bf16 xb bitsLt_bf16_f32) (shapeCast S256x1536 wx shapeCasts_S256x1536_S256x1536) p c
  have h2 := mm_4_at (truncf .bf16 vb bitsLt_bf16_f32) (shapeCast S4x1536 wv shapeCasts_S4x1536_S4x1536) p c
  have h3 := bias_at bxv p c
  unfold k0_pay2
  show (_ + _) + _ = _
  rw [h1, h2, h3]
  simp only [shapeCast_self]
  rfl

/-- THE h GATE at `(p, c)`. -/
theorem gateH_at (hb : FVec Ideal S1024x512 .f32) (wh : FVec Ideal S512x1536 .bf16) (bh : FVec Ideal S1x1536 .f32)
    (p : Fin 1024) (c : Fin 1536) :
    k0_pay3 (F := Ideal) hb wh bh (ix2 p c) = (∑ k : Fin 512, hb (ix2 p k) * wh (ix2 k c)) + bh (ix2 (0 : Fin 1) c) := by
  have h1 := mm_512_at (truncf .bf16 hb bitsLt_bf16_f32) (shapeCast S512x1536 wh shapeCasts_S512x1536_S512x1536) p c
  have h3 := bias_at bh p c
  unfold k0_pay3
  show _ + _ = _
  rw [h1, h3]
  simp only [shapeCast_self]
  rfl

end Cert.KernelIdeal.Gates

end
-- ==== Proof.KernelTile.lean ====
/-
  What one grid point leaves in its output tile, entry by entry, as the cell in its folded arrangement over the
  point's loaded blocks.

  The body stores one value: `u · hx + (1 - u) · n` with `u`, `r` the logistic of the folded gate plus the h gate in the
  update and reset column blocks and `n` the hyperbolic tangent of the folded gate plus `r` times the h gate in the
  candidate block. Its three column slices of the two `[1024, 1536]` gate tensors read them at columns `j + 512`, `j` and
  `j + 1024`; the tensors themselves at an entry are the sums of the gate lemmas.
-/
import proofs.«108542_j81157702025454_2_alg».proof.Proof.Gen.KernelIdeal.Value
import proofs.«108542_j81157702025454_2_alg».proof.Proof.KernelGates
import proofs.«108542_j81157702025454_2_alg».proof.Proof.GruSpec

noncomputable section

namespace Cert.KernelIdeal.Tile

open Cert.KernelIdeal Cert.KernelIdeal.Gen Idealize.ShloMosaic Idealize.ShloMosaic.ValueIdx

/-- The folded x/vel gate over a tile's blocks, at tile row `p` and gate column `c`. -/
def xvOf (xb : FVec Ideal S1024x256 .f32) (vb : FVec Ideal S1024x4 .f32) (wx : FVec Ideal S256x1536 .bf16)
    (wv : FVec Ideal S4x1536 .bf16) (bxv : FVec Ideal S1x1536 .f32) (p : Fin 1024) (c : Fin 1536) : EReal :=
  ((∑ k : Fin 256, xb (ix2 p k) * wx (ix2 k c)) + (∑ k : Fin 4, vb (ix2 p k) * wv (ix2 k c))) + bxv (ix2 (0 : Fin 1) c)

/-- The h gate over a tile's blocks, at tile row `p` and gate column `c`. -/
def hOf (hb : FVec Ideal S1024x512 .f32) (wh : FVec Ideal S512x1536 .bf16) (bh : FVec Ideal S1x1536 .f32)
    (p : Fin 1024) (c : Fin 1536) : EReal :=
  (∑ k : Fin 512, hb (ix2 p k) * wh (ix2 k c)) + bh (ix2 (0 : Fin 1) c)

/-- The cell over a tile's blocks at tile row `p`, hidden unit `j`, in the folded arrangement. -/
def cellOf (xb : FVec Ideal S1024x256 .f32) (vb : FVec Ideal S1024x4 .f32) (wx : FVec Ideal S256x1536 .bf16)
    (wv : FVec Ideal S4x1536 .bf16) (bxv : FVec Ideal S1x1536 .f32) (hb : FVec Ideal S1024x512 .f32)
    (wh : FVec Ideal S512x1536 .bf16) (bh : FVec Ideal S1x1536 .f32) (p : Fin 1024) (j : Fin 512) : EReal :=
  Ideal.logistic (xvOf xb vb wx wv bxv p (GruCell.colU j) + hOf hb wh bh p (GruCell.colU j)) * hb (ix2 p j)
    + (GruCell.one - Ideal.logistic (xvOf xb vb wx wv bxv p (GruCell.colU j) + hOf hb wh bh p (GruCell.colU j)))
      * Ideal.tanh (xvOf xb vb wx wv bxv p (GruCell.colN j)
          + Ideal.logistic (xvOf xb vb wx wv bxv p (GruCell.colR j) + hOf hb wh bh p (GruCell.colR j))
            * hOf hb wh bh p (GruCell.colN j))

/-- THE STORED TILE, entry `(p, j)`: the generated one-function form of the body's store is the folded cell. -/
theorem stored_at (xb : FVec Ideal S1024x256 .f32) (vb : FVec Ideal S1024x4 .f32) (wx : FVec Ideal S256x1536 .bf16)
    (wv : FVec Ideal S4x1536 .bf16) (bxv : FVec Ideal S1x1536 .f32) (hb : FVec Ideal S1024x512 .f32)
    (wh : FVec Ideal S512x1536 .bf16) (bh : FVec Ideal S1x1536 .f32) (p : Fin 1024) (j : Fin 512) :
    Value.E8 (F := Ideal) xb vb wx wv bxv hb wh bh (ix2 p j) = cellOf xb vb wx wv bxv hb wh bh p j := by
  have i0 : Value.ix8_0 (ix2 p j) = ix2 p (GruCell.colU j) :=
    funext fun a => Fin.ext (by match a with | ⟨0, _⟩ => rfl | ⟨1, _⟩ => rfl)
  have i1 : Value.ix8_1 (ix2 p j) = ix2 p (GruCell.colU j) :=
    funext fun a => Fin.ext (by match a with | ⟨0, _⟩ => rfl | ⟨1, _⟩ => rfl)
  have i2 : Value.ix8_2 (ix2 p j) = ix2 p j :=
    funext fun a => Fin.ext (by match a with | ⟨0, _⟩ => rfl | ⟨1, _⟩ => rfl)
  have i4 : Value.ix8_4 (ix2 p j) = ix2 p (GruCell.colU j) :=
    funext fun a => Fin.ext (by match a with | ⟨0, _⟩ => rfl | ⟨1, _⟩ => rfl)
  have i5 : Value.ix8_5 (ix2 p j) = ix2 p (GruCell.colU j) :=
    funext fun a => Fin.ext (by match a with | ⟨0, _⟩ => rfl | ⟨1, _⟩ => rfl)
  have i6 : Value.ix8_6 (ix2 p j) = ix2 p (GruCell.colN j) :=
    funext fun a => Fin.ext (by match a with | ⟨0, _⟩ => rfl | ⟨1, _⟩ => rfl)
  have i7 : Value.ix8_7 (ix2 p j) = ix2 p (GruCell.colR j) :=
    funext fun a => Fin.ext (by match a with | ⟨0, _⟩ => rfl | ⟨1, _⟩ => rfl)
  have i8 : Value.ix8_8 (ix2 p j) = ix2 p (GruCell.colR j) :=
    funext fun a => Fin.ext (by match a with | ⟨0, _⟩ => rfl | ⟨1, _⟩ => rfl)
  have i9 : Value.ix8_9 (ix2 p j) = ix2 p (GruCell.colN j) :=
    funext fun a => Fin.ext (by match a with | ⟨0, _⟩ => rfl | ⟨1, _⟩ => rfl)
  have h7 : k0_pay7 (F := Ideal) (Value.ix8_3 (ix2 p j)) = GruCell.one := rfl
  unfold cellOf xvOf hOf
  simp only [Value.E8, i0, i1, i2, i4, i5, i6, i7, i8, i9, h7, Gates.gateXV_at, Gates.gateH_at,
    Ideal.addf_def, Ideal.mulf_def, Ideal.subf_def, Ideal.logistic_def, Ideal.tanh_def]

end Cert.KernelIdeal.Tile

end
-- ==== Proof.KernelBlockReads.lean ====
/-
  Each input window's block at a grid point, read back to the argument arrays.

  The grid has 32 points along the batch; point `t` takes rows `1024·t … 1024·t + 1023` of `x`, `hx` and `vel` whole
  across their columns, and the whole of each weight and bias operand at every point. The weight operands are not the
  arguments themselves: before the call each weight matrix is transposed and cast to half precision (the identity on
  the extended reals), the x- and vel-biases are added, and both bias vectors are reshaped to one row. So a weight
  block at `(k, c)` is the argument at `(c, k)`, the folded bias at `(0, c)` is `b_ih(c) + b_vel(c)`, and the h bias at
  `(0, c)` is `b_hh(c)`.
-/
import proofs.«108542_j81157702025454_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import proofs.«108542_j81157702025454_2_alg».proof.Proof.GruSpec

noncomputable section

namespace Cert.KernelIdeal.Reads

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The batch row that row `p` of grid point `t`'s tile is. -/
def row (t : Fin cfg0.N) (p : Fin 1024) : Fin 32768 :=
  ⟨t.val * 1024 + p.val, by have ht : t.val < 32 := lt_of_lt_of_eq t.isLt N_0; have hp := p.isLt; omega⟩

/-- The printed index maps, decided over the 32 grid points: the three activation windows and the output window step
    with the point along the batch and stay at column block 0; the five weight and bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## What the operations before the call leave in the weight and bias operands -/

theorem entry_main_v1 (c : Dev nD) : @Eq (S256x1536.Idx → EReal) (V m c main_v1)
    (truncf (F := Ideal) .bf16 (transpose S256x1536 [1, 0] (m ((c : Thread nD τ).loc main_arg3)) transposes_S1536x256_S256x1536_1_0) bitsLt_bf16_f32) := by
  dsimp only [Gen.V, Gen.hostOps0]; after_results

theorem entry_main_v3 (c : Dev nD) : @Eq (S512x1536.Idx → EReal) (V m c main_v3)
    (truncf (F := Ideal) .bf16 (transpose S512x1536 [1, 0] (m ((c : Thread nD τ).loc main_arg5)) transposes_S1536x512_S512x1536_1_0) bitsLt_bf16_f32) := by
  dsimp only [Gen.V, Gen.hostOps0]; after_results

theorem entry_main_v5 (c : Dev nD) : @Eq (S4x1536.Idx → EReal) (V m c main_v5)
    (truncf (F := Ideal) .bf16 (transpose S4x1536 [1, 0] (m ((c : Thread nD τ).loc main_arg7)) transposes_S1536x4_S4x1536_1_0) bitsLt_bf16_f32) := by
  dsimp only [Gen.V, Gen.hostOps0]; after_results

theorem entry_main_v7 (c : Dev nD) : @Eq (S1x1536.Idx → EReal) (V m c main_v7)
    (shapeCast S1x1536 (addf (F := Ideal) (s := S1536) (φ := .f32) (m ((c : Thread nD τ).loc main_arg4)) (m ((c : Thread nD τ).loc main_arg8))) shapeCasts_S1536_S1x1536) := by
  dsimp only [Gen.V, Gen.hostOps0]; after_results; rfl

theorem entry_main_v8 (c : Dev nD) : @Eq (S1x1536.Idx → EReal) (V m c main_v8)
    (shapeCast S1x1536 (m ((c : Thread nD τ).loc main_arg6)) shapeCasts_S1536_S1x1536) := by
  dsimp only [Gen.V, Gen.hostOps0]; after_results; rfl

/-! ## The blocks -/

/-- Point `t`'s block of `x`: its rows `1024·t + p`. -/
theorem x_block (c : Dev nD) (t : Fin cfg0.N) (p : Fin 1024) (k : Fin 256) :
    iblk m c 0 t (ix2 p k) = m ((c : Thread nD τ).loc main_arg0) (ix2 (row t p) k) := by
  have hf := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 256 + 1 * k.val = k.val; omega

/-- Point `t`'s block of `hx`: its rows `1024·t + p`. -/
theorem hx_block (c : Dev nD) (t : Fin cfg0.N) (p : Fin 1024) (k : Fin 512) :
    iblk m c 1 t (ix2 p k) = m ((c : Thread nD τ).loc main_arg1) (ix2 (row t p) k) := by
  have hf := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 1024 + 1 * p.val = t.val * 1024 + p.val; omega
  | ⟨1, _⟩ => show win0_1.index t (1 : Fin 2) * 512 + 1 * k.val = k.val; omega

/-- Point `t`'s block of `vel`: its rows `1024·t + p`. -/
theorem vel_block (c : Dev nD) (t : Fin cfg0.N) (p : Fin 1024) (k : Fin 4) :
    iblk m c 2 t (ix2 p k) = m ((c : Thread nD τ).loc main_arg2) (ix2 (row t p) k) := by
  have hf := idx_facts t
  show V m c main_arg2 (((cfg0.win 2).blk t).view.emb (ix2 p k)) = _
  rw [V_main_arg2]
  refine congrArg _ (funext fun a => Fin.ext ?_)
  match a with
  | ⟨0, _⟩ => show win0_2.index t (0 : Fin 2) * 1024 + 1 * p.val = t.val * 1024 + p.val; omega
  | ⟨1, _⟩ => show win0_2.index t (1 : Fin 2) * 4 + 1 * k.val = k.val; omega

/-- The x weight operand, whole at every point, is `W_ih` transposed. -/
theorem wih_block (c : Dev nD) (t : Fin cfg0.N) (k : Fin 256) (cc : Fin 1536) :
    iblk m c 3 t (ix2 k cc) = m ((c : Thread nD τ).loc main_arg3) (ix2 cc k) := by
  have hf := idx_facts t
  show V m c main_v1 (((cfg0.win 3).blk t).view.emb (ix2 k cc)) = _
  have he : ((cfg0.win 3).blk t).view.emb (ix2 k cc) = ix2 k cc := funext fun a => Fin.ext (by
    match a with
    | ⟨0, _⟩ => show win0_3.index t (0 : Fin 2) * 256 + 1 * k.val = k.val; omega
    | ⟨1, _⟩ => show win0_3.index t (1 : Fin 2) * 1536 + 1 * cc.val = cc.val; omega)
  rw [he, entry_main_v1]
  show transpose S256x1536 [1, 0] (m ((c : Thread nD τ).loc main_arg3)) transposes_S1536x256_S256x1536_1_0 (ix2 k cc) = _
  exact transpose_ix2_apply _ _ k cc

/-- The h weight operand, whole at every point, is `W_hh` transposed. -/
theorem whh_block (c : Dev nD) (t : Fin cfg0.N) (k : Fin 512) (cc : Fin 1536) :
    iblk m c 4 t (ix2 k cc) = m ((c : Thread nD τ).loc main_arg5) (ix2 cc k) := by
  have hf := idx_facts t
  show V m c main_v3 (((cfg0.win 4).blk t).view.emb (ix2 k cc)) = _
  have he : ((cfg0.win 4).blk t).view.emb (ix2 k cc) = ix2 k cc := funext fun a => Fin.ext (by
    match a with
    | ⟨0, _⟩ => show win0_4.index t (0 : Fin 2) * 512 + 1 * k.val = k.val; omega
    | ⟨1, _⟩ => show win0_4.index t (1 : Fin 2) * 1536 + 1 * cc.val = cc.val; omega)
  rw [he, entry_main_v3]
  show transpose S512x1536 [1, 0] (m ((c : Thread nD τ).loc main_arg5)) transposes_S1536x512_S512x1536_1_0 (ix2 k cc) = _
  exact transpose_ix2_apply _ _ k cc

/-- The vel weight operand, whole at every point, is `W_vel` transposed. -/
theorem wvel_block (c : Dev nD) (t : Fin cfg0.N) (k : Fin 4) (cc : Fin 1536) :
    iblk m c 5 t (ix2 k cc) = m ((c : Thread nD τ).loc main_arg7) (ix2 cc k) := by
  have hf := idx_facts t
  show V m c main_v5 (((cfg0.win 5).blk t).view.emb (ix2 k cc)) = _
  have he : ((cfg0.win 5).blk t).view.emb (ix2 k cc) = ix2 k cc := funext fun a => Fin.ext (by
    match a with
    | ⟨0, _⟩ => show win0_5.index t (0 : Fin 2) * 4 + 1 * k.val = k.val; omega
    | ⟨1, _⟩ => show win0_5.index t (1 : Fin 2) * 1536 + 1 * cc.val = cc.val; omega)
  rw [he, entry_main_v5]
  show transpose S4x1536 [1, 0] (m ((c : Thread nD τ).loc main_arg7)) transposes_S1536x4_S4x1536_1_0 (ix2 k cc) = _
  exact transpose_ix2_apply _ _ k cc

/-- The folded bias operand, whole at every point, is `b_ih + b_vel` as one row. -/
theorem bxv_block (c : Dev nD) (t : Fin cfg0.N) (cc : Fin 1536) :
    iblk m c 6 t (ix2 (0 : Fin 1) cc) = GruCell.biasSum (m ((c : Thread nD τ).loc main_arg4)) (m ((c : Thread nD τ).loc main_arg8)) cc := by
  have hf := idx_facts t
  show V m c main_v7 (((cfg0.win 6).blk t).view.emb (ix2 (0 : Fin 1) cc)) = _
  have he : ((cfg0.win 6).blk t).view.emb (ix2 (0 : Fin 1) cc) = ix2 (0 : Fin 1) cc := funext fun a => Fin.ext (by
    match a with
    | ⟨0, _⟩ => show win0_6.index t (0 : Fin 2) * 1 + 1 * 0 = 0; omega
    | ⟨1, _⟩ => show win0_6.index t (1 : Fin 2) * 1536 + 1 * cc.val = cc.val; omega)
  rw [he, entry_main_v7]
  exact shapeCast_a_1a_apply _ _ 0 cc

/-- The h bias operand, whole at every point, is `b_hh` as one row. -/
theorem bhh_block (c : Dev nD) (t : Fin cfg0.N) (cc : Fin 1536) :
    iblk m c 7 t (ix2 (0 : Fin 1) cc) = m ((c : Thread nD τ).loc main_arg6) (ix1 cc) := by
  have hf := idx_facts t
  show V m c main_v8 (((cfg0.win 7).blk t).view.emb (ix2 (0 : Fin 1) cc)) = _
  have he : ((cfg0.win 7).blk t).view.emb (ix2 (0 : Fin 1) cc) = ix2 (0 : Fin 1) cc := funext fun a => Fin.ext (by
    match a with
    | ⟨0, _⟩ => show win0_7.index t (0 : Fin 2) * 1 + 1 * 0 = 0; omega
    | ⟨1, _⟩ => show win0_7.index t (1 : Fin 2) * 1536 + 1 * cc.val = cc.val; omega)
  rw [he, entry_main_v8]
  exact shapeCast_a_1a_apply _ _ 0 cc

end Cert.KernelIdeal.Reads

end
-- ==== Proof.KernelWhole.lean ====
/-
  From tiles to the whole result: after the kernel's run its result array is the cell `GruCell.hy` of the argument
  arrays as launched.

  Grid point `t` writes back rows `1024·t … 1024·t + 1023` of the result, all 512 columns. What it writes at `(p, j)` is
  the folded cell over its blocks (the stored tile), which, the blocks read back to the arguments, is the folded cell
  of the arguments at batch row `1024·t + p`, and that is the cell itself by the regrouping of sums. The 32 tiles cover
  the result array: row `r` lies in the tile of point `r / 1024`.
-/
import proofs.«108542_j81157702025454_2_alg».proof.Proof.Gen.KernelIdeal.Value
import proofs.«108542_j81157702025454_2_alg».proof.Proof.KernelTile
import proofs.«108542_j81157702025454_2_alg».proof.Proof.KernelBlockReads
import proofs.«108542_j81157702025454_2_alg».proof.Proof.GruSpec

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The cell of core `c`'s argument arrays as launched. -/
def result (c : Dev nD) : GruCell.Mat 32768 512 :=
  GruCell.hy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The folded cell over point `t`'s blocks is the folded cell of the arguments at batch row `1024·t + p`. -/
theorem cellOf_blocks (c : Dev nD) (t : Fin cfg0.N) (p : Fin 1024) (j : Fin 512) :
    Tile.cellOf (iblk m c 0 t) (iblk m c 2 t) (iblk m c 3 t) (iblk m c 5 t) (iblk m c 6 t) (iblk m c 1 t) (iblk m c 4 t) (iblk m c 7 t) p j
      = GruCell.hyAtFolded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (Reads.row t p) j := by
  unfold Tile.cellOf Tile.xvOf Tile.hOf GruCell.hyAtFolded GruCell.gateXV GruCell.gate GruCell.proj
  simp only [Reads.x_block, Reads.hx_block, Reads.vel_block, Reads.wih_block, Reads.whh_block, Reads.wvel_block,
    Reads.bxv_block, Reads.bhh_block]

theorem zero_offsets : (![0, 0] : Fin 2 → Nat) = fun _ => 0 := funext fun a => by fin_cases a <;> rfl

/-- WHAT POINT `t` WRITES BACK is its tile of the cell of the arguments. -/
theorem flushed_eq (c : Dev nD) (t : Fin cfg0.N) :
    (dats m 0 c).flushed 8 t = ((cfg0.win 8).blk t).view.read (Elt Ideal) (result m c) := by
  rw [Value.flushed8]
  funext y
  obtain ⟨p, j, rfl⟩ : ∃ (p : Fin 1024) (j : Fin 512), y = ix2 p j := ⟨y 0, y 1, eq_ix2 (n0 := 1024) (n1 := 512) y⟩
  show out0_8 (iblk m c 0 t) (iblk m c 1 t) (iblk m c 2 t) (iblk m c 3 t) (iblk m c 4 t) (iblk m c 5 t) (iblk m c 6 t) (iblk m c 7 t) (ix2 p j) = result m c (((cfg0.win 8).blk t).view.emb (ix2 p j))
  unfold out0_8
  simp only [View.ld_unit_zero (S := S1024x256) zero_offsets, View.ld_unit_zero (S := S1024x512) zero_offsets,
    View.ld_unit_zero (S := S1024x4) zero_offsets, View.ld_unit_zero (S := S256x1536) zero_offsets,
    View.ld_unit_zero (S := S4x1536) zero_offsets, View.ld_unit_zero (S := S1x1536) zero_offsets,
    View.ld_unit_zero (S := S512x1536) zero_offsets]
  refine (Value.canon8_eq (iblk m c 0 t) (iblk m c 2 t) (iblk m c 3 t) (iblk m c 5 t) (iblk m c 6 t) (iblk m c 1 t) (iblk m c 4 t) (iblk m c 7 t) (ix2 p j)).trans ?_
  refine (Tile.stored_at (iblk m c 0 t) (iblk m c 2 t) (iblk m c 3 t) (iblk m c 5 t) (iblk m c 6 t) (iblk m c 1 t) (iblk m c 4 t) (iblk m c 7 t) p j).trans ?_
  refine (cellOf_blocks m c t p j).trans ?_
  refine (GruCell.hyAtFolded_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (Reads.row t p) j).trans ?_
  have hf := Reads.idx_facts t
  have he : ((cfg0.win 8).blk t).view.emb (ix2 p j) = ix2 (Reads.row t p) j := funext fun a => Fin.ext (by
    match a with
    | ⟨0, _⟩ => show win0_8.index t (0 : Fin 2) * 1024 + 1 * p.val = t.val * 1024 + p.val; omega
    | ⟨1, _⟩ => show win0_8.index t (1 : Fin 2) * 512 + 1 * j.val = j.val; omega)
  rw [he]
  rfl

/-- An index of the result array is in point `t`'s tile iff each coordinate is in the tile's range on its axis. -/
theorem mem_tile (t : Fin cfg0.N) (i : S32768x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v9).slice (win0_8.rect t)).set ↔ _
  rw [View.set_slice_whole, Rect.mem_set_unit]
  exact Iff.rfl

/-- THE TILES COVER the result array: batch row `r` is in the tile of point `r / 1024`. -/
theorem covered (i : S32768x512.Idx) : ∃ t : Fin cfg0.N, (cfg0.win 8).flush t = true ∧ i ∈ ((cfg0.win 8).blk t).view.set := by
  have hi0 : (i 0).val < 32768 := (i 0).isLt
  have hi1 : (i 1).val < 512 := (i 1).isLt
  have ht : (i 0).val / 1024 < cfg0.N := lt_of_lt_of_eq (by omega : (i 0).val / 1024 < 32) N_0.symm
  have hf := Reads.idx_facts ⟨(i 0).val / 1024, ht⟩
  refine ⟨⟨(i 0).val / 1024, ht⟩, flush0_8 _, ?_⟩
  rw [mem_tile]
  intro a
  match a with
  | ⟨0, _⟩ =>
    show win0_8.index ⟨(i 0).val / 1024, ht⟩ (0 : Fin 2) * 1024 ≤ (i 0).val ∧ (i 0).val < win0_8.index ⟨(i 0).val / 1024, ht⟩ (0 : Fin 2) * 1024 + 1024
    have h80 : win0_8.index ⟨(i 0).val / 1024, ht⟩ (0 : Fin 2) = (i 0).val / 1024 := hf.2.2.2.2.2.2.2.2.2.2.2.2.2.2.2.2.1
    omega
  | ⟨1, _⟩ =>
    show win0_8.index ⟨(i 0).val / 1024, ht⟩ (1 : Fin 2) * 512 ≤ (i 1).val ∧ (i 1).val < win0_8.index ⟨(i 0).val / 1024, ht⟩ (1 : Fin 2) * 512 + 512
    have h81 : win0_8.index ⟨(i 0).val / 1024, ht⟩ (1 : Fin 2) = 0 := hf.2.2.2.2.2.2.2.2.2.2.2.2.2.2.2.2.2
    omega

/-- THE RESULT ARRAY after the run is the cell of the arguments. -/
theorem final (c : Dev nD) : (dats m 0 c).arrAt 8 cfg0.N = result m c :=
  (dats m 0 c).arrAt_eq_of_cover 8 (result m c) (fun t _ => flushed_eq m c t) (fun i => covered i)

/-- The kernel's run: every weakly fair execution ends with the result array at the cell of the arguments and the
    arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.lean ====
/-
  A gated recurrent cell with a third (velocity) input, as a tiled kernel against its array-level definition.

  Both programs compute, for batch row `b` and hidden unit `j`,
      hy = u · hx + (1 - u) · n,   r, u = σ(…),   n = tanh(… + r · H),   σ z = 1 / (1 + e^(-z)),
  from three affine maps of the inputs `x`, `hx`, `vel` into 1536 gate columns (`Proof/GruSpec.lean`: `GruCell.hy`). They
  differ in three ways, none of which changes the value on the extended reals:
  * the kernel adds the x- and vel-products first and their two biases first, where the definition forms each
    input's gate separately — a regrouping of sums, true at the infinities too (`GruCell.hyAtFolded_eq`), so the
    precondition that the inputs are finite is never used;
  * the kernel applies the logistic function as one operation, the definition writes the quotient `1 / (1 + e^(-z))`
    with the literal `1.0` — the same function of the extended reals (`Proof/RefIsGru.lean`);
  * the kernel works on 32 tiles of 1024 batch rows with half-precision matrix operands and pre-transposed weights,
    each product accumulated into zero — on the extended reals the plain sums over the contracted axis
    (`Proof/KernelGates.lean`, `KernelTile.lean`, `KernelBlockReads.lean`), and the tiles cover the result
    (`Proof/KernelWhole.lean`).
  The three frames are the generated ones (the reference's is its generated run with the result dropped); the
  idealization rewrote no operation, so `preserves` has nothing to state.
-/
import proofs.«108542_j81157702025454_2_alg».proof.Defs
import proofs.«108542_j81157702025454_2_alg».proof.Proof.Gen.Kernel
import proofs.«108542_j81157702025454_2_alg».proof.Proof.Gen.Kernel.Skeleton
import proofs.«108542_j81157702025454_2_alg».proof.Proof.Gen.Kernel.Launch
import proofs.«108542_j81157702025454_2_alg».proof.Proof.Gen.Kernel.Points
import proofs.«108542_j81157702025454_2_alg».proof.Proof.Gen.Kernel.Frame
import proofs.«108542_j81157702025454_2_alg».proof.Proof.Gen.KernelIdeal
import proofs.«108542_j81157702025454_2_alg».proof.Proof.Gen.KernelIdeal.Skeleton
import proofs.«108542_j81157702025454_2_alg».proof.Proof.Gen.KernelIdeal.Launch
import proofs.«108542_j81157702025454_2_alg».proof.Proof.Gen.KernelIdeal.Points
import proofs.«108542_j81157702025454_2_alg».proof.Proof.Gen.KernelIdeal.Frame
import proofs.«108542_j81157702025454_2_alg».proof.Proof.Gen.ReferenceIdeal
import proofs.«108542_j81157702025454_2_alg».proof.Proof.Gen.Pre_finite_inputs
import proofs.«108542_j81157702025454_2_alg».proof.Proof.Gen.KernelIdeal.Value
import proofs.«108542_j81157702025454_2_alg».proof.Proof.Gen.ReferenceIdeal.Run
import proofs.«108542_j81157702025454_2_alg».proof.Proof.Gen.ReferenceIdeal.Read
import proofs.«108542_j81157702025454_2_alg».proof.Proof.RefIsGru
import proofs.«108542_j81157702025454_2_alg».proof.Proof.KernelWhole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's result array ends at the cell of its arguments (the tiles, read back) and the
    reference's at the cell of its own (its operations, read one at a time); the arguments agree, so the two results
    are equal element by element. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefGru.result_eq]
  unfold Cert.KernelIdeal.Whole.result
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
